-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 43
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S128x128, .bf16⟩
  | .hbm, ⟨11, _⟩ => ⟨S128x128, .bf16⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S1x128, .f32⟩
  | .hbm, ⟨26, _⟩ => ⟨S100000x128, .bf16⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .bf16⟩
  | .hbm, ⟨36, _⟩ => ⟨S640000x128, .f32⟩
  | .hbm, ⟨37, _⟩ => ⟨S_, .f32⟩
  | .hbm, ⟨38, _⟩ => ⟨S100000x128, .f32⟩
  | .hbm, ⟨39, _⟩ => ⟨S640000x1, .i32⟩
  | .hbm, ⟨40, _⟩ => ⟨S100000x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S100000x128, .f32⟩
  | .hbm, ⟨21, _⟩ => ⟨S640000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .f32⟩
  | .hbm, ⟨41, _⟩ => ⟨S100000x128, .f32⟩
  | .hbm, ⟨42, _⟩ => ⟨S640000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result named.

  The program is two launches of the layer kernel among three stretches of host operations.  Its run ends, on every
  device, with every buffer that outlives the launches at the contents the last boundary names: the result array at
  what the second launch's write-backs leave in it, the six arguments as they were at the start.
-/
import proofs.«139853_j46531675685231_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds the
    contents of the last boundary, and each argument array what it held at the start. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.KernelPayload.lean ====
/-
  What one run of the layer kernel's body computes, entry by entry, on the extended reals.

  The body loads a 5000 x 128 block x of features, the matching block a of neighbour sums, the whole 128 x 128
  weight matrix w and the 1 x 128 bias row b, and stores one 5000 x 128 block.  A change of float format is the
  identity on the extended reals and the matrix product into a zero accumulator is the plain row-by-column sum, so
  the stored block at (p, q) is

      ( Σ_k (x (p, k) + a (p, k)) · w (k, q) ) + b (0, q),

  clamped below at zero by the first layer's body and as it stands by the second's.
-/
import proofs.«139853_j46531675685231_2_alg».proof.Proof.Gen.KernelIdeal.Skeleton
import proofs.«139853_j46531675685231_2_alg».proof.Proof.LibRowColumn
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The kernel's contraction: rows of a 5000 x 128 block against columns of a 128 x 128 matrix. -/
abbrev rowCol : DotDims S5000x128 S128x128 S5000x128 := dot_S5000x128_S128x128_S5000x128_1_0_0_1_n_n

/-- The left operand is read at the output's row and the contracted coordinate, the right operand at the contracted
    coordinate and the output's column: the four coordinate facts of a rows-against-columns contraction. -/
theorem lhs0 (i : S5000x128.Idx) (q : rowCol.contr.Idx) : (rowCol.lhsIdx i q 0).val = (i 0).val := by
  unfold DotDims.lhsIdx
  rw [dif_neg (show ¬(0 : Fin S5000x128.rank) ∈ rowCol.lhsBatch by decide), dif_pos (show (0 : Fin S5000x128.rank) ∈ rowCol.lhsNonContracting by decide)]
  rfl
theorem lhs1 (i : S5000x128.Idx) (q : rowCol.contr.Idx) : (rowCol.lhsIdx i q 1).val = (q ⟨0, by decide⟩).val :=
  rowCol.lhsIdx_val_of_single rfl i q
theorem rhs0 (i : S5000x128.Idx) (q : rowCol.contr.Idx) : (rowCol.rhsIdx i q 0).val = (q ⟨0, by decide⟩).val :=
  rowCol.rhsIdx_val_of_single rfl i q
theorem rhs1 (i : S5000x128.Idx) (q : rowCol.contr.Idx) : (rowCol.rhsIdx i q 1).val = (i 1).val := by
  unfold DotDims.rhsIdx
  rw [dif_neg (show ¬(1 : Fin S128x128.rank) ∈ rowCol.rhsBatch by decide), dif_pos (show (1 : Fin S128x128.rank) ∈ rowCol.rhsNonContracting by decide)]
  rfl

/-- One block of the layer: rows of `x + a` against the columns of `w`, plus the bias row. -/
def layerBlock (x a : S5000x128.Idx → EReal) (w : S128x128.Idx → EReal) (b : S1x128.Idx → EReal) : S5000x128.Idx → EReal :=
  fun j => (∑ k : Fin 128, (x (ix2 (j 0) k) + a (ix2 (j 0) k)) * w (ix2 k (j 1))) + b (ix2 (0 : Fin 1) (j 1))

/-- The second layer's body stores the layer's block as it stands. -/
theorem pay1_eq (x : Vec Ideal S5000x128 .bf16) (a : Vec Ideal S5000x128 .f32) (w : Vec Ideal S128x128 .bf16) (b : Vec Ideal S1x128 .f32) :
    k1_pay1 (F := Ideal) x a w b = layerBlock x a w b := by
  funext j
  obtain ⟨p, q, rfl⟩ : ∃ (p : Fin 5000) (q : Fin 128), j = ix2 p q := ⟨j 0, j 1, eq_ix2 j⟩
  unfold k1_pay1
  simp only [shapeCast_self]
  rw [addf_apply, broadcastTo_1b_ab_apply]
  simp only [matmul]
  rw [Cert.Lib.RowColumn.matmul_zero_entry rowCol rfl rfl lhs0 lhs1 rhs0 rhs1 none _ _ (ix2 p q)]
  rfl

/-- The first layer's body stores the layer's block clamped below at zero. -/
theorem pay0_eq (x a : Vec Ideal S5000x128 .f32) (w : Vec Ideal S128x128 .bf16) (b : Vec Ideal S1x128 .f32) :
    k0_pay1 (F := Ideal) x a w b = fun j => max (layerBlock x a w b j) (Ideal.ofBits .f32 0x00000000#32) := by
  funext j
  obtain ⟨p, q, rfl⟩ : ∃ (p : Fin 5000) (q : Fin 128), j = ix2 p q := ⟨j 0, j 1, eq_ix2 j⟩
  unfold k0_pay1
  simp only [shapeCast_self]
  rw [truncf_apply, maximumf_apply, addf_apply, broadcastTo_1b_ab_apply]
  simp only [matmul]
  rw [Cert.Lib.RowColumn.matmul_zero_entry rowCol rfl rfl lhs0 lhs1 rhs0 rhs1 none _ _ (ix2 p q)]
  rfl

end Cert.KernelIdeal.Payload

end
-- ==== Proof.GinLayer.lean ====
/-
  One graph-isomorphism layer on the extended reals, and two of them stacked.

  A layer takes the node features X (100000 nodes, 128 features each), the neighbour sums A of the same shape, a
  128 x 128 weight matrix W and a bias row β, and returns at node r, feature j

      ( Σ_k (X (r, k) + A (r, k)) · W (k, j) ) + β j .

  The network applies a first layer to the input features, clamps the result below at zero, and applies a second
  layer to that hidden state; each layer's neighbour sums are one and the same function `agg` of the features the
  layer reads.  The aggregation is a parameter here: nothing in this file looks inside it.
-/
import Idealize.ShloMosaic.PureOps.Ideal.Laws
import Idealize.ShloMosaic.Lib.ValueIdx

noncomputable section

namespace Cert.Gin

open Idealize.ShloMosaic Idealize.ShloMosaic.ValueIdx

/-- Node features: 100000 rows of 128. -/
abbrev Nodes : Shape := ⟨2, ![100000, 128]⟩
/-- A weight matrix: 128 x 128. -/
abbrev Weights : Shape := ⟨2, ![128, 128]⟩

/-- The dense part of one layer: `(X + A) W + β`, entry by entry. -/
def dense (X A : Nodes.Idx → EReal) (W : Weights.Idx → EReal) (β : Fin 128 → EReal) : Nodes.Idx → EReal :=
  fun i => (∑ k : Fin 128, (X (ix2 (i 0) k) + A (ix2 (i 0) k)) * W (ix2 k (i 1))) + β (i 1)

/-- The clamp below at the extended real the f32 zero word denotes. -/
def clamp (Y : Nodes.Idx → EReal) : Nodes.Idx → EReal :=
  fun i => max (Y i) (Ideal.ofBits .f32 0x00000000#32)

/-- Two layers stacked, the first one clamped, both aggregating with `agg`. -/
def twoLayers (agg : (Nodes.Idx → EReal) → Nodes.Idx → EReal) (x : Nodes.Idx → EReal)
    (W₁ : Weights.Idx → EReal) (β₁ : Fin 128 → EReal) (W₂ : Weights.Idx → EReal) (β₂ : Fin 128 → EReal) :
    Nodes.Idx → EReal :=
  dense (clamp (dense x (agg x) W₁ β₁)) (agg (clamp (dense x (agg x) W₁ β₁))) W₂ β₂

end Cert.Gin

end
-- ==== Proof.KernelLayer0.lean ====
/-
  The first launch of the layer kernel, read as one function of whole arrays, on the extended reals.

  The launch walks twenty grid points.  At point t it stages rows 5000 t … 5000 t + 4999 of the feature array and of
  the neighbour-sum array, the whole weight matrix and the whole bias row, runs the body, and writes the body's block
  back to the same rows of the output array.  The body's block at (p, q) is the layer's value at row 5000 t + p and
  column q, clamped below at zero; the twenty blocks tile the output array; so after the launch the output array is the layer
  of the arrays the launch was entered with, clamped.  The contents the launch is entered with are a parameter here.
-/
import proofs.«139853_j46531675685231_2_alg».proof.Proof.Gen.KernelIdeal.Frame
import proofs.«139853_j46531675685231_2_alg».proof.Proof.KernelPayload
import proofs.«139853_j46531675685231_2_alg».proof.Proof.GinLayer
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

-- the buffers' contents when the launch is entered: any
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the feature, neighbour-sum and output windows are at row block `t`,
    the weight matrix and the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature block at point `t` is rows `5000 t … 5000 t + 4999` of the feature array. -/
theorem features_rows (c : Dev nD) (t : Fin cfg0.N) (y : S5000x128.Idx) (i : S100000x128.Idx)
    (h0 : (i 0).val = t.val * 5000 + (y 0).val) (h1 : (i 1).val = (y 1).val) :
    (iblk0 V c 0 t : S5000x128.Idx → EReal) y = (V c main_arg0 : S100000x128.Idx → EReal) i := by
  obtain ⟨e0, e1, -⟩ := idx_facts t
  unfold iblk0
  rw [View.read_apply]
  show V c main_arg0 _ = V c main_arg0 i
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The neighbour-sum block at point `t` is the same rows of the neighbour-sum array. -/
theorem sums_rows (c : Dev nD) (t : Fin cfg0.N) (y : S5000x128.Idx) (i : S100000x128.Idx)
    (h0 : (i 0).val = t.val * 5000 + (y 0).val) (h1 : (i 1).val = (y 1).val) :
    (iblk0 V c 1 t : S5000x128.Idx → EReal) y = (V c main_v15 : S100000x128.Idx → EReal) i := by
  obtain ⟨-, -, e0, e1, -⟩ := idx_facts t
  unfold iblk0
  rw [View.read_apply]
  show V c main_v15 _ = V c main_v15 i
  congr 1
  funext a
  apply Fin.ext
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The weight block at every point is the whole weight matrix. -/
theorem weights_whole (c : Dev nD) (t : Fin cfg0.N) (y : S128x128.Idx) :
    (iblk0 V c 2 t : S128x128.Idx → EReal) y = (V c main_v4 : S128x128.Idx → EReal) y := by
  obtain ⟨-, -, -, -, e0, e1, -⟩ := idx_facts t
  unfold iblk0
  rw [View.read_apply]
  show V c main_v4 _ = V c main_v4 y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias block at every point is the whole bias row. -/
theorem bias_whole (c : Dev nD) (t : Fin cfg0.N) (y : S1x128.Idx) :
    (iblk0 V c 3 t : S1x128.Idx → EReal) y = (V c main_v16 : S1x128.Idx → EReal) y := by
  obtain ⟨-, -, -, -, -, -, e0, e1, -⟩ := idx_facts t
  unfold iblk0
  rw [View.read_apply]
  show V c main_v16 _ = V c main_v16 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The layer of the arrays as the launch finds them. -/
def layer (c : Dev nD) : Cert.Gin.Nodes.Idx → EReal :=
  Cert.Gin.dense (V c main_arg0) (V c main_v15) (V c main_v4) (fun q => (V c main_v16 : S1x128.Idx → EReal) (ix2 (0 : Fin 1) q))

/-- The layer's block at point `t`, entry by entry, is the whole-array layer at the block's rows. -/
theorem block_entry (c : Dev nD) (t : Fin cfg0.N) (y : S5000x128.Idx) (i : S100000x128.Idx)
    (h0 : (i 0).val = t.val * 5000 + (y 0).val) (h1 : (i 1).val = (y 1).val) :
    layerBlock (iblk0 V c 0 t) (iblk0 V c 1 t) (iblk0 V c 2 t) (iblk0 V c 3 t) y = layer V c i := by
  unfold layerBlock layer Cert.Gin.dense
  refine congrArg₂ (· + ·) (Finset.sum_congr rfl fun k _ => ?_) ?_
  · rw [features_rows V c t (ix2 (y 0) k) (ix2 (i 0) k) h0 rfl, sums_rows V c t (ix2 (y 0) k) (ix2 (i 0) k) h0 rfl,
      weights_whole V c t (ix2 k (y 1))]
    refine congrArg _ (congrArg _ (funext fun a => Fin.ext ?_))
    match a with
    | ⟨0, _⟩ => rfl
    | ⟨1, _⟩ => exact h1.symm
  · rw [bias_whole V c t (ix2 (0 : Fin 1) (y 1))]
    refine congrArg _ (funext fun a => Fin.ext ?_)
    match a with
    | ⟨0, _⟩ => rfl
    | ⟨1, _⟩ => exact h1.symm

/-- What the launch leaves in its output array: the layer, clamped below at zero. -/
def result (c : Dev nD) : Cert.Gin.Nodes.Idx → EReal := Cert.Gin.clamp (layer V c)

/-- What point `t` writes back is block `t` of `result`. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  rw [pay0_eq]
  obtain ⟨-, -, -, -, -, -, -, -, e0, e1⟩ := idx_facts t
  funext j
  rw [View.read_apply]
  show max (layerBlock _ _ _ _ j) _ = Cert.Gin.clamp (layer V c) (((cfg0.win 4).blk t).view.emb j)
  unfold Cert.Gin.clamp
  refine congrArg (max · _) (block_entry V c t j _ ?_ ?_)
  · show win0_4.index t (0 : Fin 2) * 5000 + 1 * (j 0).val = t.val * 5000 + (j 0).val; omega
  · show win0_4.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v17).slice (win0_4.rect t)).set ↔ _
  rw [View.set_slice_whole, Rect.mem_set_unit]
  exact Iff.rfl

/-- Row `r` of the output array is written back by point `r / 5000`: the twenty blocks tile the array. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the launch is `result` of the arrays as the launch found them. -/
theorem final (c : Dev nD) : (dat0 V c).arrAt 4 cfg0.N = result V c :=
  (dat0 V c).arrAt_eq_of_cover 4 (result V c) (fun t _ => flushed_eq V c t) (cover)

end Cert.KernelIdeal.Layer0

end
-- ==== Proof.KernelLayer1.lean ====
/-
  The second launch of the layer kernel, read as one function of whole arrays, on the extended reals.

  The launch walks twenty grid points.  At point t it stages rows 5000 t … 5000 t + 4999 of the feature array and of
  the neighbour-sum array, the whole weight matrix and the whole bias row, runs the body, and writes the body's block
  back to the same rows of the output array.  The body's block at (p, q) is the layer's value at row 5000 t + p and
  column q; the twenty blocks tile the output array; so after the launch the output array is the layer
  of the arrays the launch was entered with.  The contents the launch is entered with are a parameter here.
-/
import proofs.«139853_j46531675685231_2_alg».proof.Proof.Gen.KernelIdeal.Frame
import proofs.«139853_j46531675685231_2_alg».proof.Proof.KernelPayload
import proofs.«139853_j46531675685231_2_alg».proof.Proof.GinLayer
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

-- the buffers' contents when the launch is entered: any
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the feature, neighbour-sum and output windows are at row block `t`,
    the weight matrix and the bias row at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature block at point `t` is rows `5000 t … 5000 t + 4999` of the feature array. -/
theorem features_rows (c : Dev nD) (t : Fin cfg1.N) (y : S5000x128.Idx) (i : S100000x128.Idx)
    (h0 : (i 0).val = t.val * 5000 + (y 0).val) (h1 : (i 1).val = (y 1).val) :
    (iblk1 V c 0 t : S5000x128.Idx → EReal) y = (V c main_v17 : S100000x128.Idx → EReal) i := by
  obtain ⟨e0, e1, -⟩ := idx_facts t
  unfold iblk1
  rw [View.read_apply]
  show V c main_v17 _ = V c main_v17 i
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The neighbour-sum block at point `t` is the same rows of the neighbour-sum array. -/
theorem sums_rows (c : Dev nD) (t : Fin cfg1.N) (y : S5000x128.Idx) (i : S100000x128.Idx)
    (h0 : (i 0).val = t.val * 5000 + (y 0).val) (h1 : (i 1).val = (y 1).val) :
    (iblk1 V c 1 t : S5000x128.Idx → EReal) y = (V c main_v28 : S100000x128.Idx → EReal) i := by
  obtain ⟨-, -, e0, e1, -⟩ := idx_facts t
  unfold iblk1
  rw [View.read_apply]
  show V c main_v28 _ = V c main_v28 i
  congr 1
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The weight block at every point is the whole weight matrix. -/
theorem weights_whole (c : Dev nD) (t : Fin cfg1.N) (y : S128x128.Idx) :
    (iblk1 V c 2 t : S128x128.Idx → EReal) y = (V c main_v5 : S128x128.Idx → EReal) y := by
  obtain ⟨-, -, -, -, e0, e1, -⟩ := idx_facts t
  unfold iblk1
  rw [View.read_apply]
  show V c main_v5 _ = V c main_v5 y
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias block at every point is the whole bias row. -/
theorem bias_whole (c : Dev nD) (t : Fin cfg1.N) (y : S1x128.Idx) :
    (iblk1 V c 3 t : S1x128.Idx → EReal) y = (V c main_v29 : S1x128.Idx → EReal) y := by
  obtain ⟨-, -, -, -, -, -, e0, e1, -⟩ := idx_facts t
  unfold iblk1
  rw [View.read_apply]
  show V c main_v29 _ = V c main_v29 y
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The layer of the arrays as the launch finds them. -/
def layer (c : Dev nD) : Cert.Gin.Nodes.Idx → EReal :=
  Cert.Gin.dense (V c main_v17) (V c main_v28) (V c main_v5) (fun q => (V c main_v29 : S1x128.Idx → EReal) (ix2 (0 : Fin 1) q))

/-- The layer's block at point `t`, entry by entry, is the whole-array layer at the block's rows. -/
theorem block_entry (c : Dev nD) (t : Fin cfg1.N) (y : S5000x128.Idx) (i : S100000x128.Idx)
    (h0 : (i 0).val = t.val * 5000 + (y 0).val) (h1 : (i 1).val = (y 1).val) :
    layerBlock (iblk1 V c 0 t) (iblk1 V c 1 t) (iblk1 V c 2 t) (iblk1 V c 3 t) y = layer V c i := by
  unfold layerBlock layer Cert.Gin.dense
  refine congrArg₂ (· + ·) (Finset.sum_congr rfl fun k _ => ?_) ?_
  · rw [features_rows V c t (ix2 (y 0) k) (ix2 (i 0) k) h0 rfl, sums_rows V c t (ix2 (y 0) k) (ix2 (i 0) k) h0 rfl,
      weights_whole V c t (ix2 k (y 1))]
    refine congrArg _ (congrArg _ (funext fun a => Fin.ext ?_))
    match a with
    | ⟨0, _⟩ => rfl
    | ⟨1, _⟩ => exact h1.symm
  · rw [bias_whole V c t (ix2 (0 : Fin 1) (y 1))]
    refine congrArg _ (funext fun a => Fin.ext ?_)
    match a with
    | ⟨0, _⟩ => rfl
    | ⟨1, _⟩ => exact h1.symm

/-- What the launch leaves in its output array: the layer. -/
def result (c : Dev nD) : Cert.Gin.Nodes.Idx → EReal := layer V c

/-- What point `t` writes back is block `t` of `result`. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [pay1_eq]
  obtain ⟨-, -, -, -, -, -, -, -, e0, e1⟩ := idx_facts t
  funext j
  rw [View.read_apply]
  show layerBlock _ _ _ _ j = layer V c (((cfg1.win 4).blk t).view.emb j)
  refine block_entry V c t j _ ?_ ?_
  · show win1_4.index t (0 : Fin 2) * 5000 + 1 * (j 0).val = t.val * 5000 + (j 0).val; omega
  · show win1_4.index t (1 : Fin 2) * 128 + 1 * (j 1).val = (j 1).val; omega

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- Row `r` of the output array is written back by point `r / 5000`: the twenty blocks tile the array. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the launch is `result` of the arrays as the launch found them. -/
theorem final (c : Dev nD) : (dat1 V c).arrAt 4 cfg1.N = result V c :=
  (dat1 V c).arrAt_eq_of_cover 4 (result V c) (fun t _ => flushed_eq V c t) (cover)

end Cert.KernelIdeal.Layer1

end
-- ==== Proof.KernelHost.lean ====
/-
  The host operations of the idealized kernel program, read.

  Before the first launch the program slices the edge list into its source and destination rows, wraps a negative
  source index around, gathers the source rows of the input features and adds them into the destination rows of a
  zero array (the first layer's neighbour sums); it rounds both weight matrices to a narrower format and reshapes
  both bias vectors to rows.  Between the launches it does the same gather and scatter-add on the first launch's
  output, widening the gathered rows back.  On the extended reals a change of float format is the identity, so both
  neighbour sums are ONE function `agg` of the edge list and of the features they aggregate, the weight matrices are
  the arguments themselves, and a bias row read at (0, q) is the bias vector at q.
-/
import proofs.«139853_j46531675685231_2_alg».proof.Proof.Gen.KernelIdeal.Frame
import Idealize.ShloMosaic.Lib.StableHlo.Run
import Idealize.ShloMosaic.Lib.ValueLayout
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo

/-- Row 0 of the edge list: each edge's source node. -/
def sources (E : S2x640000.Idx → BitVec 32) : S640000.Idx → BitVec 32 :=
  shapeCast _ (extractStridedSlice S1x640000 ![0, 0] E slices_S2x640000_S1x640000_0_0) shapeCasts_S1x640000_S640000

/-- Row 1 of the edge list, as a column: each edge's destination node. -/
def dstColumn (E : S2x640000.Idx → BitVec 32) : S640000x1.Idx → BitVec 32 :=
  broadcastInDim S640000x1 ![0] bcast_S640000_S640000x1_0
    (shapeCast _ (extractStridedSlice S1x640000 ![1, 0] E slices_S2x640000_S1x640000_1_0) shapeCasts_S1x640000_S640000)

/-- The source nodes as a column, a negative one counted from the end of the node list. -/
def srcColumn (E : S2x640000.Idx → BitVec 32) : S640000x1.Idx → BitVec 32 :=
  broadcastInDim S640000x1 ![0] bcast_S640000_S640000x1_0
    (select (cmpi .slt (sources E) (broadcastInDim S640000 ![] bcast_S_S640000 (constantI S_ 32 0#32)))
      (addi (sources E) (broadcastInDim S640000 ![] bcast_S_S640000 (constantI S_ 32 100000#32))) (sources E))

/-- The neighbour sums of the features `X` over the edges `E`: every edge's source row gathered, then added into its
    destination row of a zero array. -/
def agg (E : S2x640000.Idx → BitVec 32) (X : S100000x128.Idx → EReal) : S100000x128.Idx → EReal :=
  Host.scatterAdd (F := Ideal) (φ := .f32) scatter_S100000x128_S640000x1_S640000x128_1_0_0_1
    (broadcastInDim S100000x128 ![] bcast_S_S100000x128 (constant (F := Ideal) S_ .f32 0x00000000#32)) (dstColumn E)
    (Host.gather gather_S100000x128_S640000x1_S640000x128_1_0_n_n_0_1_1128 X (srcColumn E))

variable (m : (ℓ : Loc nD τ sig) → Buf (Elt Ideal) ℓ) (ρ : Dev nD → PrngReg)

/-! ## The first launch's arrays -/

theorem first_features (c : Dev nD) : V1 m ρ c main_arg0 = m ((c : Thread nD τ).loc main_arg0) := by
  show StableHlo.after hostOps0 (W0 m ρ c) (Proc.devRef .tc main_arg0) = _
  after_results

theorem first_sums (c : Dev nD) :
    (V1 m ρ c main_v15 : S100000x128.Idx → EReal) = agg (m ((c : Thread nD τ).loc main_arg1)) (m ((c : Thread nD τ).loc main_arg0)) := by
  show StableHlo.after hostOps0 (W0 m ρ c) (Proc.devRef .tc main_v15) = _
  after_results
  rfl

theorem first_weights (c : Dev nD) :
    (V1 m ρ c main_v4 : S128x128.Idx → EReal) = m ((c : Thread nD τ).loc main_arg2) := by
  show StableHlo.after hostOps0 (W0 m ρ c) (Proc.devRef .tc main_v4) = _
  after_results
  rfl

theorem first_bias (c : Dev nD) (q : Fin 128) :
    (V1 m ρ c main_v16 : S1x128.Idx → EReal) (ix2 (0 : Fin 1) q) = (m ((c : Thread nD τ).loc main_arg3) : S128.Idx → EReal) (ix1 q) := by
  have e : (V1 m ρ c main_v16 : S1x128.Idx → EReal) = shapeCast S1x128 (m ((c : Thread nD τ).loc main_arg3) : S128.Idx → EReal) shapeCasts_S128_S1x128 := by
    show StableHlo.after hostOps0 (W0 m ρ c) (Proc.devRef .tc main_v16) = _
    after_results
    rfl
  rw [e]
  exact shapeCast_a_1a_apply _ _ 0 q

/-! ## The second launch's arrays -/

/-- Between the launches the edge list's rows are still what the first stretch of host operations made of them. -/
theorem kept_sources (c : Dev nD) :
    (W2 m ρ c (Proc.devRef .tc main_v1) : S640000.Idx → BitVec 32) = sources (m ((c : Thread nD τ).loc main_arg1)) := by
  rw [W2_of_ne m ρ c main_v1 (by decide)]
  show StableHlo.after hostOps0 (W0 m ρ c) (Proc.devRef .tc main_v1) = _
  after_results
  rfl

theorem kept_destinations (c : Dev nD) :
    (W2 m ρ c (Proc.devRef .tc main_v3) : S640000.Idx → BitVec 32)
      = shapeCast _ (extractStridedSlice S1x640000 ![1, 0] (m ((c : Thread nD τ).loc main_arg1)) slices_S2x640000_S1x640000_1_0) shapeCasts_S1x640000_S640000 := by
  rw [W2_of_ne m ρ c main_v3 (by decide)]
  show StableHlo.after hostOps0 (W0 m ρ c) (Proc.devRef .tc main_v3) = _
  after_results
  rfl

theorem second_features (c : Dev nD) : V3 m ρ c main_v17 = W2 m ρ c (Proc.devRef .tc main_v17) := by
  show StableHlo.after hostOps1 (W2 m ρ c) (Proc.devRef .tc main_v17) = _
  after_results

theorem second_sums (c : Dev nD) :
    (V3 m ρ c main_v28 : S100000x128.Idx → EReal)
      = agg (m ((c : Thread nD τ).loc main_arg1)) (W2 m ρ c (Proc.devRef .tc main_v17) : S100000x128.Idx → EReal) := by
  show StableHlo.after hostOps1 (W2 m ρ c) (Proc.devRef .tc main_v28) = _
  after_results
  rw [kept_sources, kept_destinations]
  rfl

theorem second_weights (c : Dev nD) :
    (V3 m ρ c main_v5 : S128x128.Idx → EReal) = m ((c : Thread nD τ).loc main_arg4) := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  rfl

theorem second_bias (c : Dev nD) (q : Fin 128) :
    (V3 m ρ c main_v29 : S1x128.Idx → EReal) (ix2 (0 : Fin 1) q) = (m ((c : Thread nD τ).loc main_arg5) : S128.Idx → EReal) (ix1 q) := by
  have e : (V3 m ρ c main_v29 : S1x128.Idx → EReal) = shapeCast S1x128 (m ((c : Thread nD τ).loc main_arg5) : S128.Idx → EReal) shapeCasts_S128_S1x128 := by
    show StableHlo.after hostOps1 (W2 m ρ c) (Proc.devRef .tc main_v29) = _
    after_results
    rw [W2_of_ne m ρ c main_arg5 (by decide)]
    show shapeCast _ (StableHlo.after hostOps0 (W0 m ρ c) (Proc.devRef .tc main_arg5)) _ = _
    after_results
    rfl
  rw [e]
  exact shapeCast_a_1a_apply _ _ 0 q

end Cert.KernelIdeal.Host

end
-- ==== Proof.KernelNetwork.lean ====
/-
  The idealized kernel program's result as two stacked layers, on the extended reals.

  The first launch leaves the first layer of the input features, clamped below at zero, in its output array; the host
  operations between the launches aggregate that array over the same edges; the second launch leaves the second
  layer of it in the result array.  Every array a launch reads is, by the host operations read before it, an argument
  or a function of the arguments, so the result array is the two-layer network of the six arguments.
-/
import proofs.«139853_j46531675685231_2_alg».proof.Proof.KernelRun
import proofs.«139853_j46531675685231_2_alg».proof.Proof.KernelLayer0
import proofs.«139853_j46531675685231_2_alg».proof.Proof.KernelLayer1
import proofs.«139853_j46531675685231_2_alg».proof.Proof.KernelHost
import proofs.«139853_j46531675685231_2_alg».proof.Proof.GinLayer

set_option maxRecDepth 16384

noncomputable section

namespace Cert.KernelIdeal.Network

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The two-layer network of the program's six arguments on device `c`. -/
def network (c : Dev nD) : Cert.Gin.Nodes.Idx → EReal :=
  Cert.Gin.twoLayers (Host.agg (m ((c : Thread nD τ).loc main_arg1))) (m ((c : Thread nD τ).loc main_arg0))
    (m ((c : Thread nD τ).loc main_arg2)) (fun q => (m ((c : Thread nD τ).loc main_arg3) : S128.Idx → EReal) (ix1 q))
    (m ((c : Thread nD τ).loc main_arg4)) (fun q => (m ((c : Thread nD τ).loc main_arg5) : S128.Idx → EReal) (ix1 q))

/-- Between the launches the first launch's output array holds the hidden state: the first layer of the input
    features, clamped below at zero. -/
theorem hidden_eq (c : Dev nD) :
    (W2 m ρ c (Proc.devRef .tc main_v17) : S100000x128.Idx → EReal)
      = Cert.Gin.clamp (Cert.Gin.dense (m ((c : Thread nD τ).loc main_arg0))
          (Host.agg (m ((c : Thread nD τ).loc main_arg1)) (m ((c : Thread nD τ).loc main_arg0)))
          (m ((c : Thread nD τ).loc main_arg2)) (fun q => (m ((c : Thread nD τ).loc main_arg3) : S128.Idx → EReal) (ix1 q))) := by
  refine (W2_arr m ρ c 4).trans ((Layer0.final (V1 m ρ) c).trans ?_)
  unfold Layer0.result Layer0.layer
  rw [Host.first_features, Host.first_sums, Host.first_weights]
  exact congrArg Cert.Gin.clamp (congrArg (Cert.Gin.dense _ _ _) (funext fun q => Host.first_bias m ρ c q))

/-- After the second launch the result array holds the network of the arguments. -/
theorem result_eq (c : Dev nD) : W4 m ρ c (Proc.devRef .tc main_v30) = network m c := by
  refine (W4_arr m ρ c 4).trans ((Layer1.final (V3 m ρ) c).trans ?_)
  unfold Layer1.result Layer1.layer network Cert.Gin.twoLayers
  rw [Host.second_features, Host.second_sums, Host.second_weights, hidden_eq]
  exact congrArg (Cert.Gin.dense _ _ _) (funext fun q => Host.second_bias m ρ c q)

/-- The program's run: it terminates without a fault, the result array at the network of the arguments, the arguments
    as they were. -/
theorem run : θ_run defs (onTc (τ := τ) (main (F := Ideal))) ⟨m, fun _ => 0, ρ⟩ (fun r => ∀ c : Dev nD,
      r.2.mem ((c.tc : Thread nD τ).loc main_v30) = network m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Run.run_result m ρ)

end Cert.KernelIdeal.Network

end
-- ==== Proof.RefValue.lean ====
/-
  The reference program's result as two stacked layers, on the extended reals.

  The reference computes, for each layer, the neighbour sums (a gather of the source rows, added into the destination
  rows of a zero array), adds them to the features, multiplies by the weight matrix with the host's general dot
  product, and adds the bias broadcast over the rows; between the layers it clamps below at zero.  Read entry by entry,
  the general dot product is the row-by-column sum and the bias broadcast is the bias at the column, so each layer is
  the dense layer of the specification with the neighbour sums as its aggregation.
-/
import proofs.«139853_j46531675685231_2_alg».proof.Proof.Gen.ReferenceIdeal.Read
import proofs.«139853_j46531675685231_2_alg».proof.Proof.GinLayer
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- Row 0 of the edge list: each edge's source node. -/
def sources (E : S2x640000.Idx → BitVec 32) : S640000.Idx → BitVec 32 :=
  shapeCast _ (extractStridedSlice S1x640000 ![0, 0] E slices_S2x640000_S1x640000_0_0) shapeCasts_S1x640000_S640000

/-- Row 1 of the edge list, as a column: each edge's destination node. -/
def dstColumn (E : S2x640000.Idx → BitVec 32) : S640000x1.Idx → BitVec 32 :=
  broadcastInDim S640000x1 ![0] bcast_S640000_S640000x1_0
    (shapeCast _ (extractStridedSlice S1x640000 ![1, 0] E slices_S2x640000_S1x640000_1_0) shapeCasts_S1x640000_S640000)

/-- The source nodes as a column, a negative one counted from the end of the node list. -/
def srcColumn (E : S2x640000.Idx → BitVec 32) : S640000x1.Idx → BitVec 32 :=
  broadcastInDim S640000x1 ![0] bcast_S640000_S640000x1_0
    (select (cmpi .slt (sources E) (broadcastInDim S640000 ![] bcast_S_S640000 (constantI S_ 32 0#32)))
      (addi (sources E) (broadcastInDim S640000 ![] bcast_S_S640000 (constantI S_ 32 100000#32))) (sources E))

/-- The neighbour sums of the features `X` over the edges `E`: every edge's source row gathered, then added into its
    destination row of a zero array. -/
def agg (E : S2x640000.Idx → BitVec 32) (X : S100000x128.Idx → EReal) : S100000x128.Idx → EReal :=
  Host.scatterAdd (F := Ideal) (φ := .f32) scatter_S100000x128_S640000x1_S640000x128_1_0_0_1
    (broadcastInDim S100000x128 ![] bcast_S_S100000x128 (constant (F := Ideal) S_ .f32 0x00000000#32)) (dstColumn E)
    (Host.gather gather_S100000x128_S640000x1_S640000x128_1_0_n_n_0_1_1128 X (srcColumn E))

variable (x0 : S100000x128.Idx → EReal) (x1 : S2x640000.Idx → BitVec 32) (x2 : S128x128.Idx → EReal) (x3 : S128.Idx → EReal)
  (x4 : S128x128.Idx → EReal) (x5 : S128.Idx → EReal)

/-- The first layer's neighbour sums are the aggregation of the input features. -/
theorem first_sums : val_main_v13 (F := Ideal) x0 x1 = agg x1 x0 := rfl

/-- The first layer before the clamp. -/
theorem first_layer : val_main_v18 (F := Ideal) x0 x1 x2 x3 = Cert.Gin.dense x0 (agg x1 x0) x2 (fun q => x3 (ix1 q)) := by
  funext i
  rw [val_main_v18_apply, val_main_v15_apply, val_main_v17_apply, val_main_v16_apply]
  unfold Cert.Gin.dense
  refine congrArg₂ (· + ·) (Finset.sum_congr rfl fun k _ => ?_) ?_
  · have el : lidx_main_v15 i k = ix2 (i 0) k := funext fun a => Fin.ext (by
      match a with
      | ⟨0, _⟩ => rfl
      | ⟨1, _⟩ => rfl)
    have er : ridx_main_v15 i k = ix2 k (i 1) := funext fun a => Fin.ext (by
      match a with
      | ⟨0, _⟩ => rfl
      | ⟨1, _⟩ => rfl)
    rw [el, er]
    rfl
  · exact congrArg x3 (funext fun a => Fin.ext (by
      match a with
      | ⟨0, _⟩ => rfl))

/-- The hidden state: the first layer clamped below at zero. -/
theorem hidden : val_main_v19 (F := Ideal) x0 x1 x2 x3 = Cert.Gin.clamp (Cert.Gin.dense x0 (agg x1 x0) x2 (fun q => x3 (ix1 q))) := by
  funext i
  rw [val_main_v19_apply, val_main_call0_v0_apply, val_main_call0_cst_apply, first_layer]
  rfl

/-- The second layer's neighbour sums are the aggregation of the hidden state. -/
theorem second_sums : val_main_v29 (F := Ideal) x0 x1 x2 x3 = agg x1 (val_main_v19 (F := Ideal) x0 x1 x2 x3) := rfl

/-- The result: the second layer of the hidden state. -/
theorem result_eq : val_main_v34 (F := Ideal) x0 x1 x2 x3 x4 x5
    = Cert.Gin.twoLayers (agg x1) x0 x2 (fun q => x3 (ix1 q)) x4 (fun q => x5 (ix1 q)) := by
  funext i
  rw [val_main_v34_apply, val_main_v31_apply, val_main_v33_apply, val_main_v32_apply]
  unfold Cert.Gin.twoLayers
  rw [← hidden x0 x1 x2 x3]
  unfold Cert.Gin.dense
  refine congrArg₂ (· + ·) (Finset.sum_congr rfl fun k _ => ?_) ?_
  · have el : lidx_main_v31 i k = ix2 (i 0) k := funext fun a => Fin.ext (by
      match a with
      | ⟨0, _⟩ => rfl
      | ⟨1, _⟩ => rfl)
    have er : ridx_main_v31 i k = ix2 k (i 1) := funext fun a => Fin.ext (by
      match a with
      | ⟨0, _⟩ => rfl
      | ⟨1, _⟩ => rfl)
    rw [el, er]
    rfl
  · exact congrArg x5 (funext fun a => Fin.ext (by
      match a with
      | ⟨0, _⟩ => rfl))

end Cert.ReferenceIdeal.RefValue

end
-- ==== Proof.lean ====
/-
  The certificate of the two-layer graph-isomorphism network: the tiled kernel program against the plain reference.

  Both programs compute, for node features x, an edge list E, weights W₁, W₂ and biases b₁, b₂,

      h   = max ((x + agg x) W₁ + b₁, 0)
      out = (h + agg h) W₂ + b₂

  where `agg` gathers every edge's source row and adds it into the edge's destination row.  The kernel program does
  the aggregation with host operations and each dense layer with a launch of a kernel over twenty row blocks,
  rounding to a narrower float format on the way into the matrix unit and in the hidden state; the reference does
  everything with host operations.  On the extended reals a change of format is the identity and the kernel's matrix
  product is the reference's general dot product, so block by block the launches compute the reference's layers, and
  the two aggregations are one function: the results are equal entry by entry.  No algebraic law beyond that is
  needed, so finiteness of the inputs is never used.

  The frames of the two kernel programs are the generated ones; the reference's frame is its generated run with the
  result dropped; the idealization rewrote nothing, so `preserves` is trivial.
-/
import proofs.«139853_j46531675685231_2_alg».proof.Defs
import proofs.«139853_j46531675685231_2_alg».proof.Proof.Gen.Kernel
import proofs.«139853_j46531675685231_2_alg».proof.Proof.Gen.Kernel.Frame
import proofs.«139853_j46531675685231_2_alg».proof.Proof.Gen.KernelIdeal
import proofs.«139853_j46531675685231_2_alg».proof.Proof.Gen.KernelIdeal.Frame
import proofs.«139853_j46531675685231_2_alg».proof.Proof.Gen.ReferenceIdeal
import proofs.«139853_j46531675685231_2_alg».proof.Proof.Gen.Pre_finite_inputs
import proofs.«139853_j46531675685231_2_alg».proof.Proof.Gen.ReferenceIdeal.Run
import proofs.«139853_j46531675685231_2_alg».proof.Proof.Gen.ReferenceIdeal.Read
import proofs.«139853_j46531675685231_2_alg».proof.Proof.KernelNetwork
import proofs.«139853_j46531675685231_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs aggregate over the edges with the same gather and the same scatter-add. -/
theorem agg_eq : Cert.ReferenceIdeal.RefValue.agg = Cert.KernelIdeal.Host.agg := rfl

/-- From memories agreeing on the arguments both programs end with the two-layer network of the arguments in their
    result arrays. -/
theorem algebraic : Cert.algebraic_KernelIdeal_ReferenceIdeal := by
  intro m ρ m' ρ' _ hagree
  refine ⟨fun c => Cert.KernelIdeal.Network.network m c, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, agg_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
